-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x8 : Shape := ⟨3, ![32, 2048, 8]⟩
abbrev S8x64 : Shape := ⟨2, ![8, 64]⟩
abbrev S_ : Shape := ⟨0, ![]⟩

class Facts : Prop where
  bcast_S_S32x2048x8 : S_.BroadcastsInDim S32x2048x8 (![] : Fin 0 → Fin S32x2048x8.rank)
  reducesTo_S32x2048x8_S_d0_1_2 : S32x2048x8.ReducesTo [0, 1, 2] S_
  h_S_ : 0 < S_.numel
  bcast_S_S8x64 : S_.BroadcastsInDim S8x64 (![] : Fin 0 → Fin S8x64.rank)
  reducesTo_S8x64_S_d0_1 : S8x64.ReducesTo [0, 1] S_

variable [Facts]

def fn {F : FTy → Type} [FloatOps F] (main_arg0 : FVec F S32x2048x8 .f32) (main_arg1 : FVec F S8x64 .f32) (main_arg2 : FVec F S8x64 .f32) : IVec S_ 1 :=
  let main_v0 : FVec F S32x2048x8 .f32 := Host.absf main_arg0
  let main_cst : FVec F S_ .f32 := constant S_ .f32 0x7F800000#32
  let main_v1 : FVec F S32x2048x8 .f32 := broadcastInDim S32x2048x8 ![] bcast_S_S32x2048x8 main_cst
  let main_v2 : IVec S32x2048x8 1 := cmpf .olt main_v0 main_v1
  let main_c : IVec S_ 1 := constantI S_ 1 1#1
  let main_v3 : IVec S_ 1 := (fun x v => Host.reduce IntOp.andi x v reducesTo_S32x2048x8_S_d0_1_2 h_S_) main_v2 main_c
  let main_v4 : FVec F S8x64 .f32 := Host.absf main_arg1
  let main_cst_0 : FVec F S_ .f32 := constant S_ .f32 0x7F800000#32
  let main_v5 : FVec F S8x64 .f32 := broadcastInDim S8x64 ![] bcast_S_S8x64 main_cst_0
  let main_v6 : IVec S8x64 1 := cmpf .olt main_v4 main_v5
  let main_c_1 : IVec S_ 1 := constantI S_ 1 1#1
  let main_v7 : IVec S_ 1 := (fun x v => Host.reduce IntOp.andi x v reducesTo_S8x64_S_d0_1 h_S_) main_v6 main_c_1
  let main_v8 : IVec S_ 1 := andi main_v3 main_v7
  let main_v9 : FVec F S8x64 .f32 := Host.absf main_arg2
  let main_cst_2 : FVec F S_ .f32 := constant S_ .f32 0x7F800000#32
  let main_v10 : FVec F S8x64 .f32 := broadcastInDim S8x64 ![] bcast_S_S8x64 main_cst_2
  let main_v11 : IVec S8x64 1 := cmpf .olt main_v9 main_v10
  let main_c_3 : IVec S_ 1 := constantI S_ 1 1#1
  let main_v12 : IVec S_ 1 := (fun x v => Host.reduce IntOp.andi x v reducesTo_S8x64_S_d0_1 h_S_) main_v11 main_c_3
  let main_v13 : IVec S_ 1 := andi main_v8 main_v12
  main_v13
-- ==== Kernel.lean ====
abbrev S32x2048x8 : Shape := ⟨3, ![32, 2048, 8]⟩
abbrev S8x64 : Shape := ⟨2, ![8, 64]⟩
abbrev S65536x8 : Shape := ⟨2, ![65536, 8]⟩
abbrev S65536x512 : Shape := ⟨2, ![65536, 512]⟩
abbrev S1024x8 : Shape := ⟨2, ![1024, 8]⟩
abbrev S1024x512 : Shape := ⟨2, ![1024, 512]⟩
abbrev S1024x1 : Shape := ⟨2, ![1024, 1]⟩
abbrev S1x64 : Shape := ⟨2, ![1, 64]⟩
abbrev S1024x64 : Shape := ⟨2, ![1024, 64]⟩
abbrev S32x2048x512 : Shape := ⟨3, ![32, 2048, 512]⟩

abbrev nBuf : Space → Nat
  | .hbm => 6
  | .vmem => 6
  | .smem => 0
  | _ => 0

abbrev bufTy : (tb : Table) → Fin (tcTables nBuf tb) → BufTy
  | .hbm, ⟨0, _⟩ => ⟨S32x2048x8, .f32⟩
  | .hbm, ⟨1, _⟩ => ⟨S8x64, .f32⟩
  | .hbm, ⟨2, _⟩ => ⟨S8x64, .f32⟩
  | .hbm, ⟨3, _⟩ => ⟨S65536x8, .f32⟩
  | .hbm, ⟨4, _⟩ => ⟨S65536x512, .f32⟩
  | .hbm, ⟨5, _⟩ => ⟨S32x2048x512, .f32⟩
  | .local _ .vmem, ⟨0, _⟩ => ⟨S1024x8, .f32⟩
  | .local _ .vmem, ⟨1, _⟩ => ⟨S1024x8, .f32⟩
  | .local _ .vmem, ⟨2, _⟩ => ⟨S8x64, .f32⟩
  | .local _ .vmem, ⟨3, _⟩ => ⟨S8x64, .f32⟩
  | .local _ .vmem, ⟨4, _⟩ => ⟨S1024x512, .f32⟩
  | .local _ .vmem, ⟨5, _⟩ => ⟨S1024x512, .f32⟩
  | _, _ => ⟨S32x2048x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S32x2048x8_S65536x8 : S32x2048x8.ShapeCasts S65536x8
  inb_S1024x8_S1024x1_0_0 : ∀ a, (![0, 0] : Fin 2 → Nat) a + S1024x1.size a ≤ S1024x8.size a
  h_S1024x1 : 0 < S1024x1.numel
  shapeCasts_S1024x1_S1024x1 : S1024x1.ShapeCasts S1024x1
  inb_S8x64_S1x64_0_0 : ∀ a, (![0, 0] : Fin 2 → Nat) a + S1x64.size a ≤ S8x64.size a
  h_S1x64 : 0 < S1x64.numel
  broadcasts_S1024x1_S1024x64 : S1024x1.Broadcasts S1024x64
  broadcasts_S1x64_S1024x64 : S1x64.Broadcasts S1024x64
  iota_S1024x64_d1_w32 : S1024x64.Iotas .tc 32 [1]
  inb_S1024x8_S1024x1_0_1 : ∀ a, (![0, 1] : Fin 2 → Nat) a + S1024x1.size a ≤ S1024x8.size a
  inb_S8x64_S1x64_1_0 : ∀ a, (![1, 0] : Fin 2 → Nat) a + S1x64.size a ≤ S8x64.size a
  inb_S1024x8_S1024x1_0_2 : ∀ a, (![0, 2] : Fin 2 → Nat) a + S1024x1.size a ≤ S1024x8.size a
  inb_S8x64_S1x64_2_0 : ∀ a, (![2, 0] : Fin 2 → Nat) a + S1x64.size a ≤ S8x64.size a
  inb_S1024x8_S1024x1_0_3 : ∀ a, (![0, 3] : Fin 2 → Nat) a + S1024x1.size a ≤ S1024x8.size a
  inb_S8x64_S1x64_3_0 : ∀ a, (![3, 0] : Fin 2 → Nat) a + S1x64.size a ≤ S8x64.size a
  inb_S1024x8_S1024x1_0_4 : ∀ a, (![0, 4] : Fin 2 → Nat) a + S1024x1.size a ≤ S1024x8.size a
  inb_S8x64_S1x64_4_0 : ∀ a, (![4, 0] : Fin 2 → Nat) a + S1x64.size a ≤ S8x64.size a
  inb_S1024x8_S1024x1_0_5 : ∀ a, (![0, 5] : Fin 2 → Nat) a + S1024x1.size a ≤ S1024x8.size a
  inb_S8x64_S1x64_5_0 : ∀ a, (![5, 0] : Fin 2 → Nat) a + S1x64.size a ≤ S8x64.size a
  inb_S1024x8_S1024x1_0_6 : ∀ a, (![0, 6] : Fin 2 → Nat) a + S1024x1.size a ≤ S1024x8.size a
  inb_S8x64_S1x64_6_0 : ∀ a, (![6, 0] : Fin 2 → Nat) a + S1x64.size a ≤ S8x64.size a
  inb_S1024x8_S1024x1_0_7 : ∀ a, (![0, 7] : Fin 2 → Nat) a + S1024x1.size a ≤ S1024x8.size a
  inb_S8x64_S1x64_7_0 : ∀ a, (![7, 0] : Fin 2 → Nat) a + S1x64.size a ≤ S8x64.size a
  concatenates_S1024x64_S1024x64_S1024x64_S1024x64_S1024x64_S1024x64_S1024x64_S1024x64_S1024x512_d1 : Shape.Concatenates [S1024x64, S1024x64, S1024x64, S1024x64, S1024x64, S1024x64, S1024x64, S1024x64] S1024x512 1
  inb_S1024x512_S1024x512_0_0 : ∀ a, (![0, 0] : Fin 2 → Nat) a + S1024x512.size a ≤ S1024x512.size a
  h_S1024x512 : 0 < S1024x512.numel
  shapeCasts_S65536x512_S32x2048x512 : S65536x512.ShapeCasts S32x2048x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x8.size a ≤ S65536x8.size a
  hwx0_0 : ∀ i : grid0.Coords, EltTy.bits .f32 = 32 ∨ (Rect.block (s := S65536x8) S1024x8.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x64.size a ≤ S8x64.size a
  hwx0_1 : ∀ i : grid0.Coords, EltTy.bits .f32 = 32 ∨ (Rect.block (s := S8x64) S8x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x64.size a ≤ S8x64.size a
  hwx0_2 : ∀ i : grid0.Coords, EltTy.bits .f32 = 32 ∨ (Rect.block (s := S8x64) S8x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S65536x512.size a
  hwx0_3 : ∀ i : grid0.Coords, EltTy.bits .f32 = 32 ∨ (Rect.block (s := S65536x512) S1024x512.size (cc0_transform_3 i) (hinb0_3 i)).WholeWords (EltTy.packing .f32)

variable [Facts₀]

abbrev win0_0 : Pipeline.Window sig grid0 :=
  Pipeline.Window.ofSpec (Memref.whole main_v0) S1024x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x2048x8 : Shape := ⟨3, ![32, 2048, 8]⟩
abbrev S8x64 : Shape := ⟨2, ![8, 64]⟩
abbrev S32x2048x8x1 : Shape := ⟨4, ![32, 2048, 8, 1]⟩
abbrev S1x1x8x64 : Shape := ⟨4, ![1, 1, 8, 64]⟩
abbrev S32x2048x8x64 : Shape := ⟨4, ![32, 2048, 8, 64]⟩
abbrev S32x2048x8x63 : Shape := ⟨4, ![32, 2048, 8, 63]⟩
abbrev S32x2048x512 : Shape := ⟨3, ![32, 2048, 512]⟩

abbrev nBuf : Space → Nat
  | .hbm => 16
  | .vmem => 0
  | .smem => 0
  | _ => 0

abbrev bufTy : (tb : Table) → Fin (tcTables nBuf tb) → BufTy
  | .hbm, ⟨0, _⟩ => ⟨S32x2048x8, .f32⟩
  | .hbm, ⟨1, _⟩ => ⟨S8x64, .f32⟩
  | .hbm, ⟨2, _⟩ => ⟨S8x64, .f32⟩
  | .hbm, ⟨3, _⟩ => ⟨S32x2048x8x1, .f32⟩
  | .hbm, ⟨4, _⟩ => ⟨S1x1x8x64, .f32⟩
  | .hbm, ⟨5, _⟩ => ⟨S32x2048x8x64, .f32⟩
  | .hbm, ⟨6, _⟩ => ⟨S32x2048x8x64, .f32⟩
  | .hbm, ⟨7, _⟩ => ⟨S32x2048x8x64, .f32⟩
  | .hbm, ⟨8, _⟩ => ⟨S1x1x8x64, .f32⟩
  | .hbm, ⟨9, _⟩ => ⟨S32x2048x8x64, .f32⟩
  | .hbm, ⟨10, _⟩ => ⟨S32x2048x8x64, .f32⟩
  | .hbm, ⟨11, _⟩ => ⟨S32x2048x8x1, .f32⟩
  | .hbm, ⟨12, _⟩ => ⟨S32x2048x8x63, .f32⟩
  | .hbm, ⟨13, _⟩ => ⟨S32x2048x8x63, .f32⟩
  | .hbm, ⟨14, _⟩ => ⟨S32x2048x8x64, .f32⟩
  | .hbm, ⟨15, _⟩ => ⟨S32x2048x512, .f32⟩
  | _, _ => ⟨S32x2048x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]

class Facts₀ : Prop where
  bcast_S32x2048x8_S32x2048x8x1_0_1_2 : S32x2048x8.BroadcastsInDim S32x2048x8x1 (![0, 1, 2] : Fin 3 → Fin S32x2048x8x1.rank)
  bcast_S8x64_S1x1x8x64_2_3 : S8x64.BroadcastsInDim S1x1x8x64 (![2, 3] : Fin 2 → Fin S1x1x8x64.rank)
  bcast_S32x2048x8x1_S32x2048x8x64_0_1_2_3 : S32x2048x8x1.BroadcastsInDim S32x2048x8x64 (![0, 1, 2, 3] : Fin 4 → Fin S32x2048x8x64.rank)
  bcast_S1x1x8x64_S32x2048x8x64_0_1_2_3 : S1x1x8x64.BroadcastsInDim S32x2048x8x64 (![0, 1, 2, 3] : Fin 4 → Fin S32x2048x8x64.rank)
  slices_S32x2048x8x64_S32x2048x8x1_0_0_0_0 : S32x2048x8x64.Slices ![0, 0, 0, 0] S32x2048x8x1
  slices_S32x2048x8x64_S32x2048x8x63_0_0_0_1 : S32x2048x8x64.Slices ![0, 0, 0, 1] S32x2048x8x63
  concatenates_S32x2048x8x1_S32x2048x8x63_S32x2048x8x64_d3 : Shape.Concatenates [S32x2048x8x1, S32x2048x8x63] S32x2048x8x64 3
  shapeCasts_S32x2048x8x64_S32x2048x512 : S32x2048x8x64.ShapeCasts S32x2048x512

variable [Facts₀]

class Facts : Prop extends Facts₀ where

variable [Facts]
-- ==== Proof.Time2VecSpec.lean ====
/-
  The time-embedding map: every scalar feature x[.., d] (8 features per row) becomes 64 numbers — the affine value
  x·w[d, e] + b[d, e] in column e = 0 and the sine of the affine value in columns e = 1 … 63 — and a row's 8 groups of
  64 are laid side by side, so that position q of the 512 belongs to feature q / 64 and column q % 64.
  Stated index by index over the extended reals, for the batch as [32, 2048, 8] and for the batch flattened to
  65536 rows; the two are one function read through the row-major position of a row (row 2048·b + s is (b, s)).
-/
import Idealize.ShloMosaic.PureOps.Ideal
import Idealize.ShloMosaic.Lib.ValueIdx

noncomputable section

namespace Cert.Time2Vec

open Idealize.ShloMosaic Idealize.ShloMosaic.ValueIdx

/-- One output number from one feature x, one weight w, one bias b, in column e of the feature's 64: the affine value
    x·w + b in column 0, its sine elsewhere. -/
def feat (x w b : EReal) (e : ℕ) : EReal := if e = 0 then x * w + b else Ideal.sin (x * w + b)

/-- The feature a position of the 512 belongs to, -/
abbrev featOf (q : Fin 512) : Fin 8 := ⟨q.val / 64, by have := q.isLt; omega⟩
/-- and its column among that feature's 64. -/
abbrev colOf (q : Fin 512) : Fin 64 := ⟨q.val % 64, by omega⟩

/-- The map on 65536 rows of 8 features: row r, position q is `feat` of X[r, q / 64], W[q / 64, q % 64], B[q / 64, q % 64]. -/
def embedRows (X : FVec Ideal ⟨2, ![65536, 8]⟩ .f32) (W B : FVec Ideal ⟨2, ![8, 64]⟩ .f32) :
    FVec Ideal ⟨2, ![65536, 512]⟩ .f32 := fun i =>
  feat (X (ix2 (i 0) (featOf (i 1)))) (W (ix2 (featOf (i 1)) (colOf (i 1)))) (B (ix2 (featOf (i 1)) (colOf (i 1)))) ((i 1).val % 64)

/-- The map on the batch [32, 2048, 8]: entry (b, s, q) is `feat` of x[b, s, q / 64], W[q / 64, q % 64], B[q / 64, q % 64]. -/
def embed (x : FVec Ideal ⟨3, ![32, 2048, 8]⟩ .f32) (W B : FVec Ideal ⟨2, ![8, 64]⟩ .f32) :
    FVec Ideal ⟨3, ![32, 2048, 512]⟩ .f32 := fun i =>
  feat (x (ix3 (i 0) (i 1) (featOf (i 2)))) (W (ix2 (featOf (i 2)) (colOf (i 2)))) (B (ix2 (featOf (i 2)) (colOf (i 2)))) ((i 2).val % 64)

end Cert.Time2Vec

end
-- ==== Proof.BodyValue.lean ====
/-
  What the kernel body leaves in its output block, read at an entry. The body builds, for each of the 8 features d,
  a [1024, 64] column group from column d of its [1024, 8] block of rows and rows d of the weight and the bias — the
  affine value, kept where the lane number is 0 and replaced by its sine elsewhere — and lays the 8 groups side by side.
  So entry (p, q) of the [1024, 512] block is `feat` of the row's feature q / 64 with the weight and the bias at
  (q / 64, q % 64).
-/
import proofs.«118065_j20761871909647_2_alg».proof.Proof.Gen.KernelIdeal.Frame
import proofs.«118065_j20761871909647_2_alg».proof.Proof.Time2VecSpec
import Idealize.ShloMosaic.Lib.Pipeline.Value
import Idealize.ShloMosaic.Lib.ValueIdx
import Idealize.ShloMosaic.Lib.Affine

noncomputable section

namespace Cert.KernelIdeal.Body

open Cert.KernelIdeal Cert.KernelIdeal.Gen Cert.Time2Vec
open Idealize.ShloMosaic Idealize.ShloMosaic.ValueIdx

theorem hz : (![0, 0] : Fin 2 → Nat) = fun _ => 0 := funext fun a => by fin_cases a <;> rfl

/-! ## The lane test -/

/-- Among the 64 lanes, the 32-bit lane number equals the zero word exactly at lane 0. -/
theorem lane_eq_zero_iff (e : ℕ) (he : e < 64) : IntOp.cmpi .eq (BitVec.ofNat 32 e) 0#32 = 1#1 ↔ e = 0 := by
  rw [IntOp.cmpi_eq]
  constructor
  · intro h
    have h' := congrArg BitVec.toNat h
    rw [BitVec.toNat_ofNat, Nat.mod_eq_of_lt (by omega)] at h'
    exact h'
  · rintro rfl; rfl

/-- A select on that test keeps the first operand at lane 0 and takes the second elsewhere. -/
theorem select_lane {α : Type} (e : ℕ) (he : e < 64) (a b : α) :
    Scalar.select (IntOp.cmpi .eq (BitVec.ofNat 32 e) 0#32) a b = if e = 0 then a else b := by
  by_cases h : e = 0
  · rw [if_pos h, (lane_eq_zero_iff e he).mpr h]; exact select_one a b
  · rw [if_neg h, eq_zero_of_ne_one (mt (lane_eq_zero_iff e he).mp h)]; exact select_zero a b

/-! ## One feature's column group -/

/-- One feature's [1024, 64] group as the body spells it: from a [1024, 1] column of features and [1, 64] rows of
    the weight and the bias, the affine value where the lane number is 0 and its sine elsewhere. -/
def group (xc : Vec Ideal S1024x1 .f32) (wr br : Vec Ideal S1x64 .f32) : FVec Ideal S1024x64 .f32 :=
  select (cmpi .eq (iota .tc S1024x64 32 [1] iota_S1024x64_d1_w32) (broadcast S1024x64 0#32))
    (addf (mulf (broadcastTo S1024x64 (shapeCast S1024x1 xc shapeCasts_S1024x1_S1024x1) broadcasts_S1024x1_S1024x64)
      (broadcastTo S1024x64 wr broadcasts_S1x64_S1024x64)) (broadcastTo S1024x64 br broadcasts_S1x64_S1024x64))
    (sin (addf (mulf (broadcastTo S1024x64 (shapeCast S1024x1 xc shapeCasts_S1024x1_S1024x1) broadcasts_S1024x1_S1024x64)
      (broadcastTo S1024x64 wr broadcasts_S1x64_S1024x64)) (broadcastTo S1024x64 br broadcasts_S1x64_S1024x64)))

/-- A [1024, 1] column broadcast along the lanes reads its row. -/
theorem bcast_col_apply (xc : Vec Ideal S1024x1 .f32) (p : Fin 1024) (e : Fin 64) :
    broadcastTo S1024x64 xc broadcasts_S1024x1_S1024x64 (ix2 p e) = xc (ix2 p ⟨0, Nat.one_pos⟩) :=
  broadcastTo_apply xc broadcasts_S1024x1_S1024x64 (ix2 p e) (ix2 p ⟨0, Nat.one_pos⟩) fun a => match a with
    | ⟨0, _⟩ => by show p.val = if (1024 : Nat) = 1 then 0 else p.val; rw [if_neg (by decide)]
    | ⟨1, _⟩ => by show 0 = if (1 : Nat) = 1 then 0 else e.val; rw [if_pos rfl]

/-- A [1, 64] row broadcast along the rows reads its lane. -/
theorem bcast_row_apply (wr : Vec Ideal S1x64 .f32) (p : Fin 1024) (e : Fin 64) :
    broadcastTo S1024x64 wr broadcasts_S1x64_S1024x64 (ix2 p e) = wr (ix2 ⟨0, Nat.one_pos⟩ e) :=
  broadcastTo_apply wr broadcasts_S1x64_S1024x64 (ix2 p e) (ix2 ⟨0, Nat.one_pos⟩ e) fun a => match a with
    | ⟨0, _⟩ => by show 0 = if (1 : Nat) = 1 then 0 else p.val; rw [if_pos rfl]
    | ⟨1, _⟩ => by show e.val = if (64 : Nat) = 1 then 0 else e.val; rw [if_neg (by decide)]

/-- The group at row p, lane e is `feat` of the column's row p and the rows' lane e. -/
theorem group_apply (xc : Vec Ideal S1024x1 .f32) (wr br : Vec Ideal S1x64 .f32) (p : Fin 1024) (e : Fin 64) :
    group xc wr br (ix2 p e)
      = feat (xc (ix2 p ⟨0, Nat.one_pos⟩)) (wr (ix2 ⟨0, Nat.one_pos⟩ e)) (br (ix2 ⟨0, Nat.one_pos⟩ e)) e.val := by
  unfold group
  rw [select_apply]
  show Scalar.select (IntOp.cmpi .eq (iota .tc S1024x64 32 [1] iota_S1024x64_d1_w32 (ix2 p e)) 0#32) _ _ = _
  rw [iota_single_apply]
  show Scalar.select (IntOp.cmpi .eq (BitVec.ofNat 32 e.val) 0#32) _ _ = _
  rw [select_lane e.val e.isLt]
  show (if e.val = 0 then
      broadcastTo S1024x64 (shapeCast S1024x1 xc shapeCasts_S1024x1_S1024x1) broadcasts_S1024x1_S1024x64 (ix2 p e)
        * broadcastTo S1024x64 wr broadcasts_S1x64_S1024x64 (ix2 p e) + broadcastTo S1024x64 br broadcasts_S1x64_S1024x64 (ix2 p e)
    else Ideal.sin (broadcastTo S1024x64 (shapeCast S1024x1 xc shapeCasts_S1024x1_S1024x1) broadcasts_S1024x1_S1024x64 (ix2 p e)
        * broadcastTo S1024x64 wr broadcasts_S1x64_S1024x64 (ix2 p e) + broadcastTo S1024x64 br broadcasts_S1x64_S1024x64 (ix2 p e))) = _
  rw [shapeCast_self, bcast_col_apply, bcast_row_apply, bcast_row_apply]
  rfl

end Cert.KernelIdeal.Body

end
-- ==== Proof.BlockValue.lean ====
/-
  The kernel's output block as ONE function of its three input blocks: entry (p, q) of the [1024, 512] block is
  `feat` of entry (p, q / 64) of the block of rows and entries (q / 64, q % 64) of the weight and the bias. The body's
  8 column groups are the same term at 8 columns of the rows and 8 rows of the weight and the bias, so their
  concatenation reads, at position q, group q / 64 at lane q % 64.
-/
import proofs.«118065_j20761871909647_2_alg».proof.Proof.BodyValue

noncomputable section

namespace Cert.KernelIdeal.Body

open Cert.KernelIdeal Cert.KernelIdeal.Gen Cert.Time2Vec
open Idealize.ShloMosaic Idealize.ShloMosaic.ValueIdx

/-- Column d of a [1024, 8] block of rows, as the rectangle the body loads it through; -/
abbrev xcol (d : Fin 8) : Rect S1024x8 := Rect.unit (s := S1024x8) ![0, d.val] S1024x1.size fun a => match a with
  | ⟨0, _⟩ => by show 0 + 1024 ≤ 1024; omega
  | ⟨1, _⟩ => by show d.val + 1 ≤ 8; have := d.isLt; omega
/-- row d of the [8, 64] weight or bias. -/
abbrev wrow (d : Fin 8) : Rect S8x64 := Rect.unit (s := S8x64) ![d.val, 0] S1x64.size fun a => match a with
  | ⟨0, _⟩ => by show d.val + 1 ≤ 8; have := d.isLt; omega
  | ⟨1, _⟩ => by show 0 + 64 ≤ 64; omega

/-- Feature d's column group of the three blocks. -/
def groupOf (x0 : Vec Ideal S1024x8 .f32) (x1 x2 : Vec Ideal S8x64 .f32) (d : Fin 8) : FVec Ideal S1024x64 .f32 :=
  group (View.ld x0 (xcol d)) (View.ld x1 (wrow d)) (View.ld x2 (wrow d))

theorem groups_concat (x0 : Vec Ideal S1024x8 .f32) (x1 x2 : Vec Ideal S8x64 .f32) :
    Shape.Concatenates ((List.ofFn fun d : Fin 8 => (⟨S1024x64, groupOf x0 x1 x2 d⟩ : (s : Shape) × (s.Idx → EReal))).map (·.1)) S1024x512 1 :=
  concatenates_S1024x64_S1024x64_S1024x64_S1024x64_S1024x64_S1024x64_S1024x64_S1024x64_S1024x512_d1

/-- The block the body leaves is the 8 groups side by side. -/
theorem block_eq (x0 : Vec Ideal S1024x8 .f32) (x1 x2 : Vec Ideal S8x64 .f32) :
    out0_3 (F := Ideal) x0 x1 x2
      = concatenate S1024x512 1 (List.ofFn fun d : Fin 8 => (⟨S1024x64, groupOf x0 x1 x2 d⟩ : (s : Shape) × (s.Idx → EReal)))
          (groups_concat x0 x1 x2) := by
  unfold out0_3
  rw [View.canon_unit_zero hz]
  rfl

/-- Where column d's rectangle puts row p: at (p, d). -/
theorem xcol_idx (d : Fin 8) (p : Fin 1024) : (xcol d).idx (ix2 p ⟨0, Nat.one_pos⟩) = ix2 p d :=
  funext fun a => Fin.ext (by
    match a with
    | ⟨0, _⟩ => show 0 + 1 * p.val = p.val; omega
    | ⟨1, _⟩ => show d.val + 1 * 0 = d.val; omega)

/-- Where row d's rectangle puts lane e: at (d, e). -/
theorem wrow_idx (d : Fin 8) (e : Fin 64) : (wrow d).idx (ix2 ⟨0, Nat.one_pos⟩ e) = ix2 d e :=
  funext fun a => Fin.ext (by
    match a with
    | ⟨0, _⟩ => show d.val + 1 * 0 = d.val; omega
    | ⟨1, _⟩ => show 0 + 1 * e.val = e.val; omega)

/-- THE BLOCK AT AN ENTRY. -/
theorem block_apply (x0 : Vec Ideal S1024x8 .f32) (x1 x2 : Vec Ideal S8x64 .f32) (p : Fin 1024) (q : Fin 512) :
    out0_3 (F := Ideal) x0 x1 x2 (ix2 p q)
      = feat (x0 (ix2 p (featOf q))) (x1 (ix2 (featOf q) (colOf q))) (x2 (ix2 (featOf q) (colOf q))) (q.val % 64) := by
  rw [block_eq]
  refine (concatenate_ofFn_apply (t := S1024x512) (s₁ := S1024x64) (1 : Fin 2) (fun d : Fin 8 => groupOf x0 x1 x2 d)
    (groups_concat x0 x1 x2) rfl 64 rfl (ix2 p q) (featOf q) rfl (ix2 p (colOf q)) rfl (fun b hb => ?_)).trans ?_
  · match b with
    | ⟨0, _⟩ => rfl
    | ⟨1, _⟩ => exact absurd rfl hb
  · show group (View.ld x0 (xcol (featOf q))) (View.ld x1 (wrow (featOf q))) (View.ld x2 (wrow (featOf q))) (ix2 p (colOf q)) = _
    rw [group_apply]
    show feat (x0 ((xcol (featOf q)).idx (ix2 p ⟨0, Nat.one_pos⟩))) (x1 ((wrow (featOf q)).idx (ix2 ⟨0, Nat.one_pos⟩ (colOf q))))
      (x2 ((wrow (featOf q)).idx (ix2 ⟨0, Nat.one_pos⟩ (colOf q)))) (colOf q).val = _
    rw [xcol_idx, wrow_idx]

end Cert.KernelIdeal.Body

end
-- ==== Proof.ReshapeLaw.lean ====
/-
  The map on the batch is the map on its 65536 rows, reshaped: the reshape [32, 2048, 8] → [65536, 8] puts (b, s) at
  row 2048·b + s and keeps the feature, the reshape [65536, 512] → [32, 2048, 512] reads (b, s, q) from row 2048·b + s at
  position q, and the map works on each row by itself.
-/
import proofs.«118065_j20761871909647_2_alg».proof.Proof.Time2VecSpec
import Idealize.ShloMosaic.Lib.Pipeline.Value

noncomputable section

namespace Cert.Time2Vec

open Idealize.ShloMosaic Idealize.ShloMosaic.ValueIdx

/-- Row 2048·b + s of the flattened batch is (b, s) of the batch. -/
theorem rows_apply (x : FVec Ideal ⟨3, ![32, 2048, 8]⟩ .f32)
    (h : (⟨3, ![32, 2048, 8]⟩ : Shape).ShapeCasts ⟨2, ![65536, 8]⟩) (b0 : Fin 32) (s : Fin 2048) (d : Fin 8) :
    shapeCast ⟨2, ![65536, 8]⟩ x h (ix2 (⟨b0.val * 2048 + s.val, by have := b0.isLt; have := s.isLt; omega⟩ : Fin 65536) d)
      = x (ix3 b0 s d) :=
  shapeCast_apply x h _ (ix3 b0 s d) (by
    rw [Shape.rowMajor_val_three, Shape.rowMajor_val_two]
    show (b0.val * 2048 + s.val) * 8 + d.val = (b0.val * 2048 + s.val) * 8 + d.val
    rfl)

/-- THE LAW: the map on the rows, between the two reshapes, is the map on the batch. -/
theorem embed_of_rows (x : FVec Ideal ⟨3, ![32, 2048, 8]⟩ .f32) (W B : FVec Ideal ⟨2, ![8, 64]⟩ .f32)
    (h : (⟨3, ![32, 2048, 8]⟩ : Shape).ShapeCasts ⟨2, ![65536, 8]⟩)
    (h' : (⟨2, ![65536, 512]⟩ : Shape).ShapeCasts ⟨3, ![32, 2048, 512]⟩) :
    shapeCast ⟨3, ![32, 2048, 512]⟩ (embedRows (shapeCast ⟨2, ![65536, 8]⟩ x h) W B) h' = embed x W B := by
  funext i
  have h0 : (i 0).val < 32 := (i 0).isLt
  have h1 : (i 1).val < 2048 := (i 1).isLt
  have h2 : (i 2).val < 512 := (i 2).isLt
  refine (shapeCast_apply _ h' i (ix2 (⟨(i 0).val * 2048 + (i 1).val, by omega⟩ : Fin 65536) (⟨(i 2).val, h2⟩ : Fin 512)) (by
    rw [Shape.rowMajor_val_three, Shape.rowMajor_val_two]
    show ((i 0).val * 2048 + (i 1).val) * 512 + (i 2).val = ((i 0).val * 2048 + (i 1).val) * 512 + (i 2).val
    rfl)).trans ?_
  show feat (shapeCast ⟨2, ![65536, 8]⟩ x h (ix2 (⟨(i 0).val * 2048 + (i 1).val, _⟩ : Fin 65536) (featOf ⟨(i 2).val, h2⟩))) _ _ _ = _
  rw [rows_apply x h ⟨(i 0).val, h0⟩ ⟨(i 1).val, h1⟩ (featOf ⟨(i 2).val, h2⟩)]
  rfl

end Cert.Time2Vec

end
-- ==== Proof.KernelValue.lean ====
/-
  The kernel program's result as a function of its arguments. Grid point t works on rows 1024·t … 1024·t + 1023: its
  block of the flattened batch is those rows, its weight and bias blocks are the whole arrays, and what it writes back
  is those rows of the map on the 65536 rows. The 64 points' blocks tile the [65536, 512] array (row r is in point
  r / 1024's block), so the array ends as the map on the rows; the reshapes around the region make it the map on the
  batch.
-/
import proofs.«118065_j20761871909647_2_alg».proof.Proof.BlockValue
import proofs.«118065_j20761871909647_2_alg».proof.Proof.ReshapeLaw
import Idealize.ShloMosaic.Lib.StableHlo.Run

noncomputable section

namespace Cert.KernelIdeal.Hand

open Cert.KernelIdeal Cert.KernelIdeal.Gen Cert.KernelIdeal.Body Cert.Time2Vec
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## The arrays as the region finds them -/

/-- The flattened batch is the reshape of the first argument. -/
theorem rows_eq (c : Dev nD) :
    (V m c main_v0 : S65536x8.Idx → EReal)
      = shapeCast S65536x8 (m ((c : Thread nD τ).loc main_arg0)) shapeCasts_S32x2048x8_S65536x8 := by
  show StableHlo.after hostOps0 (fun b => m (c, b)) (Proc.devRef .tc main_v0) = _
  after_results
  rfl

/-- The map on the rows, of the arrays as the region finds them. -/
abbrev rowsResult (c : Dev nD) : S65536x512.Idx → EReal :=
  embedRows (V m c main_v0) (V m c main_arg1) (V m c main_arg2)

/-! ## One point's write-back -/

/-- The printed index maps over the grid: the rows' and the output's blocks are block t along the rows, the weight's
    and the bias's the one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- An output block's entry from its three input blocks, given where the input blocks' entries sit in their arrays. -/
theorem entry_of_blocks (x0 : Vec Ideal S1024x8 .f32) (x1 x2 : Vec Ideal S8x64 .f32)
    (X : FVec Ideal S65536x8 .f32) (W B : FVec Ideal S8x64 .f32) (j : S1024x512.Idx) (i : S65536x512.Idx)
    (hx : ∀ d : Fin 8, x0 (ix2 (j 0) d) = X (ix2 (i 0) d)) (hw : x1 = W) (hb : x2 = B) (hi : i 1 = j 1) :
    out0_3 (F := Ideal) x0 x1 x2 j = embedRows X W B i := by
  subst hw hb
  obtain ⟨p, q, rfl⟩ : ∃ (p : Fin 1024) (q : Fin 512), j = ix2 p q := ⟨j 0, j 1, eq_ix2 j⟩
  have hx' : ∀ d : Fin 8, x0 (ix2 p d) = X (ix2 (i 0) d) := hx
  have hi' : i 1 = q := hi
  rw [block_apply]
  show _ = feat (X (ix2 (i 0) (featOf (i 1)))) (x1 (ix2 (featOf (i 1)) (colOf (i 1)))) (x2 (ix2 (featOf (i 1)) (colOf (i 1)))) ((i 1).val % 64)
  rw [hi', hx']

/-- WHAT POINT t WRITES BACK is block t of the map on the rows. -/
theorem flushed_eq (c : Dev nD) (t : Fin cfg0.N) :
    (dats m 0 c).flushed 3 t = ((cfg0.win 3).blk t).view.read (Elt Ideal) (rowsResult m c) := by
  show (cfg0.win 3).cut (grid0.coords t) ((dats m 0 c).after 3 t) = _
  rw [after0_3]
  obtain ⟨e00, e01, e10, e11, e20, e21, e30, e31⟩ := idx_facts t
  funext j
  show out0_3 (iblk m c 0 t) (iblk m c 1 t) (iblk m c 2 t) j = rowsResult m c (((cfg0.win 3).blk t).view.emb j)
  refine entry_of_blocks (iblk m c 0 t) (iblk m c 1 t) (iblk m c 2 t) (V m c main_v0) (V m c main_arg1) (V m c main_arg2) j
    (((cfg0.win 3).blk t).view.emb j) (fun d => ?_) (funext fun y => ?_) (funext fun y => ?_) (Fin.ext ?_)
  · show V m c main_v0 (((cfg0.win 0).blk t).view.emb (ix2 (j 0) d)) = V m c main_v0 (ix2 ((((cfg0.win 3).blk t).view.emb j) 0) d)
    refine congrArg (V m c main_v0) (funext fun a => Fin.ext ?_)
    match a with
    | ⟨0, _⟩ => show win0_0.index t (0 : Fin 2) * 1024 + 1 * (j 0).val = win0_3.index t (0 : Fin 2) * 1024 + 1 * (j 0).val; omega
    | ⟨1, _⟩ => show win0_0.index t (1 : Fin 2) * 8 + 1 * d.val = d.val; omega
  · show V m c main_arg1 (((cfg0.win 1).blk t).view.emb y) = V m c main_arg1 y
    refine congrArg (V m c main_arg1) (funext fun a => Fin.ext ?_)
    match a with
    | ⟨0, _⟩ => show win0_1.index t (0 : Fin 2) * 8 + 1 * (y 0).val = (y 0).val; omega
    | ⟨1, _⟩ => show win0_1.index t (1 : Fin 2) * 64 + 1 * (y 1).val = (y 1).val; omega
  · show V m c main_arg2 (((cfg0.win 2).blk t).view.emb y) = V m c main_arg2 y
    refine congrArg (V m c main_arg2) (funext fun a => Fin.ext ?_)
    match a with
    | ⟨0, _⟩ => show win0_2.index t (0 : Fin 2) * 8 + 1 * (y 0).val = (y 0).val; omega
    | ⟨1, _⟩ => show win0_2.index t (1 : Fin 2) * 64 + 1 * (y 1).val = (y 1).val; omega
  · show win0_3.index t (1 : Fin 2) * 512 + 1 * (j 1).val = (j 1).val; omega

/-! ## The blocks tile the array -/

/-- An index of the [65536, 512] array is in point t's block iff each coordinate is in the block's range on its axis. -/
theorem mem_blk (t : Fin cfg0.N) (i : S65536x512.Idx) :
    i ∈ ((cfg0.win 3).blk t).view.set ↔ ∀ a : Fin 2, win0_3.index t a * S1024x512.size a ≤ (i a).val ∧ (i a).val < win0_3.index t a * S1024x512.size a + S1024x512.size a := by
  show i ∈ ((View.whole main_v1).slice (win0_3.rect t)).set ↔ _
  rw [View.set_slice_whole, Rect.mem_set_unit]
  exact Iff.rfl

/-- Row r is in the block of point r / 1024. -/
theorem covered (i : S65536x512.Idx) :
    ∃ t : Fin cfg0.N, (cfg0.win 3).flush t = true ∧ i ∈ ((cfg0.win 3).blk t).view.set := by
  have hi0 : (i 0).val < 65536 := (i 0).isLt
  have hi1 : (i 1).val < 512 := (i 1).isLt
  have hN : cfg0.N = 64 := N_0
  refine ⟨⟨(i 0).val / 1024, by rw [hN]; omega⟩, flush0_3 _, ?_⟩
  rw [mem_blk]
  obtain ⟨-, -, -, -, -, -, e30, e31⟩ := idx_facts ⟨(i 0).val / 1024, by rw [hN]; omega⟩
  intro a
  match a with
  | ⟨0, _⟩ =>
    show win0_3.index _ (0 : Fin 2) * 1024 ≤ (i 0).val ∧ (i 0).val < win0_3.index _ (0 : Fin 2) * 1024 + 1024
    rw [e30]; show (i 0).val / 1024 * 1024 ≤ (i 0).val ∧ (i 0).val < (i 0).val / 1024 * 1024 + 1024; omega
  | ⟨1, _⟩ =>
    show win0_3.index _ (1 : Fin 2) * 512 ≤ (i 1).val ∧ (i 1).val < win0_3.index _ (1 : Fin 2) * 512 + 512
    rw [e31]; omega

/-- THE ARRAY after the region: the map on the rows. -/
theorem final (c : Dev nD) : (dats m 0 c).arrAt 3 cfg0.N = rowsResult m c :=
  (dats m 0 c).arrAt_eq_of_cover 3 (rowsResult m c) (fun t _ => flushed_eq m c t) covered

/-! ## The reshape after the region, and the run -/

/-- The program's result: the region's array reshaped is the map on the batch, of the arguments as launched. -/
theorem result_eq (c : Dev nD) :
    Pipeline.afterTail₀ cfgs (dats m) 0 (V0 m) [hostOps1] c main_v2
      = embed (m ((c : Thread nD τ).loc main_arg0)) (m ((c : Thread nD τ).loc main_arg1)) (m ((c : Thread nD τ).loc main_arg2)) := by
  unfold Pipeline.afterTail₀
  show StableHlo.after hostOps1 _ (Proc.devRef .tc main_v2) = _
  after_results
  rw [show Pipeline.withArrays cfg0.spec c (V0 m c) (fun w => (dats m 0 c).arrAt w cfg0.N) (Proc.devRef .tc main_v1)
      = rowsResult m c from (Pipeline.withArrays_arr spec0 launch0.win.arr_inj c _ _ 3).trans (final m c)]
  unfold rowsResult
  rw [rows_eq, V_main_arg1, V_main_arg2]
  exact embed_of_rows _ _ _ _ _

/-- THE RUN, READ: every weakly fair execution terminates with the result at the map on the batch of the arguments,
    and the arguments unchanged. -/
theorem run : θ_run defs (onTc (τ := τ) (main (F := Ideal))) ⟨m, fun _ => 0, ρ⟩ fun r => ∀ c : Dev nD,
      r.2.mem ((c : Thread nD τ).loc main_v2)
        = embed (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
    ⟨((h c).2 main_v2 (Pipeline.mem_restRefs_of main_v2 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.Hand

end
-- ==== Proof.RefValue.lean ====
/-
  The reference program computes the time-embedding map. Its stages, read at an index: the affine value
  x[b, s, d]·w[d, e] + b[d, e] on [32, 2048, 8, 64]; column 0 of it kept, the sine of columns 1 … 63, the two joined
  back along the last axis; and the reshape to [32, 2048, 512], which sends position q of the 512 to (q / 64, q % 64).
-/
import proofs.«118065_j20761871909647_2_alg».proof.Proof.Gen.ReferenceIdeal.Read
import proofs.«118065_j20761871909647_2_alg».proof.Proof.Time2VecSpec
import Idealize.ShloMosaic.Lib.Pipeline.Value
import Idealize.ShloMosaic.Lib.ValueIdx

noncomputable section

namespace Cert.ReferenceIdeal.RefValue

open Cert.ReferenceIdeal Cert.ReferenceIdeal.Gen Cert.ReferenceIdeal.Read Cert.Time2Vec
open Idealize.ShloMosaic Idealize.ShloMosaic.ValueIdx

variable (x : FVec Ideal S32x2048x8 .f32) (w b : FVec Ideal S8x64 .f32)

/-! ## The operands' indices under the two broadcasts -/

theorem idx_x (b0 : Fin 32) (s : Fin 2048) (d : Fin 8) (e : Fin 64) :
    idx_main_v0 (idx_main_v2 (ix4 b0 s d e)) = ix3 b0 s d :=
  funext fun a => Fin.ext (by match a with | ⟨0, _⟩ => rfl | ⟨1, _⟩ => rfl | ⟨2, _⟩ => rfl)

theorem idx_w (b0 : Fin 32) (s : Fin 2048) (d : Fin 8) (e : Fin 64) :
    idx_main_v1 (idx_main_v3 (ix4 b0 s d e)) = ix2 d e :=
  funext fun a => Fin.ext (by match a with | ⟨0, _⟩ => rfl | ⟨1, _⟩ => rfl)

theorem idx_b (b0 : Fin 32) (s : Fin 2048) (d : Fin 8) (e : Fin 64) :
    idx_main_v5 (idx_main_v6 (ix4 b0 s d e)) = ix2 d e :=
  funext fun a => Fin.ext (by match a with | ⟨0, _⟩ => rfl | ⟨1, _⟩ => rfl)

/-- The affine stage at (b, s, d, e) is x[b, s, d]·w[d, e] + b[d, e]. -/
theorem affine_apply (b0 : Fin 32) (s : Fin 2048) (d : Fin 8) (e : Fin 64) :
    val_main_v7 (F := Ideal) x w b (ix4 b0 s d e) = x (ix3 b0 s d) * w (ix2 d e) + b (ix2 d e) := by
  rw [val_main_v7_apply, val_main_v4_apply, val_main_v2_apply, val_main_v0_apply, val_main_v3_apply, val_main_v1_apply,
    val_main_v6_apply, val_main_v5_apply, idx_x, idx_w, idx_b]
  rfl

/-! ## The two slices and the sine -/

theorem idx_first (b0 : Fin 32) (s : Fin 2048) (d : Fin 8) :
    idx_main_v8 (ix4 b0 s d (⟨0, Nat.one_pos⟩ : Fin 1)) = ix4 b0 s d (⟨0, by decide⟩ : Fin 64) :=
  funext fun a => Fin.ext (by match a with | ⟨0, _⟩ => rfl | ⟨1, _⟩ => rfl | ⟨2, _⟩ => rfl | ⟨3, _⟩ => rfl)

theorem idx_rest (b0 : Fin 32) (s : Fin 2048) (d : Fin 8) (e : Fin 63) :
    idx_main_v9 (ix4 b0 s d e) = ix4 b0 s d (⟨1 + e.val, by have := e.isLt; omega⟩ : Fin 64) :=
  funext fun a => Fin.ext (by match a with | ⟨0, _⟩ => rfl | ⟨1, _⟩ => rfl | ⟨2, _⟩ => rfl | ⟨3, _⟩ => rfl)

/-- The kept column is the affine value at column 0. -/
theorem first_apply (b0 : Fin 32) (s : Fin 2048) (d : Fin 8) :
    val_main_v8 (F := Ideal) x w b (ix4 b0 s d (⟨0, Nat.one_pos⟩ : Fin 1))
      = x (ix3 b0 s d) * w (ix2 d ⟨0, by decide⟩) + b (ix2 d ⟨0, by decide⟩) := by
  rw [val_main_v8_apply, idx_first, affine_apply]

/-- The other columns are the sine of the affine value, one column along. -/
theorem rest_apply (b0 : Fin 32) (s : Fin 2048) (d : Fin 8) (e : Fin 63) :
    val_main_v10 (F := Ideal) x w b (ix4 b0 s d e)
      = Ideal.sin (x (ix3 b0 s d) * w (ix2 d ⟨1 + e.val, by have := e.isLt; omega⟩) + b (ix2 d ⟨1 + e.val, by have := e.isLt; omega⟩)) := by
  rw [val_main_v10_apply, val_main_v9_apply, idx_rest, affine_apply]
  rfl

/-! ## Joined back and reshaped -/

/-- The two joined along the last axis: `feat` at every (b, s, d, e). -/
theorem joined_apply (b0 : Fin 32) (s : Fin 2048) (d : Fin 8) (e : Fin 64) :
    val_main_v11 (F := Ideal) x w b (ix4 b0 s d e) = feat (x (ix3 b0 s d)) (w (ix2 d e)) (b (ix2 d e)) e.val := by
  unfold val_main_v11 feat
  by_cases h : e.val = 0
  · obtain rfl : e = ⟨0, by decide⟩ := Fin.ext h
    rw [if_pos rfl]
    refine (concatenate_pair_apply_left (t := S32x2048x8x64) (s₁ := S32x2048x8x1) (s₂ := S32x2048x8x63) (3 : Fin 4)
      (val_main_v8 (F := Ideal) x w b) (val_main_v10 (F := Ideal) x w b) concatenates_S32x2048x8x1_S32x2048x8x63_S32x2048x8x64_d3
      (ix4 b0 s d (⟨0, by decide⟩ : Fin 64)) rfl (ix4 b0 s d (⟨0, Nat.one_pos⟩ : Fin 1)) fun a => ?_).trans (first_apply x w b b0 s d)
    match a with
    | ⟨0, _⟩ => rfl
    | ⟨1, _⟩ => rfl
    | ⟨2, _⟩ => rfl
    | ⟨3, _⟩ => rfl
  · rw [if_neg h]
    have he : e.val < 64 := e.isLt
    refine (concatenate_pair_apply_right (t := S32x2048x8x64) (s₁ := S32x2048x8x1) (s₂ := S32x2048x8x63) (3 : Fin 4)
      (val_main_v8 (F := Ideal) x w b) (val_main_v10 (F := Ideal) x w b) concatenates_S32x2048x8x1_S32x2048x8x63_S32x2048x8x64_d3
      (ix4 b0 s d e) rfl rfl (ix4 b0 s d (⟨e.val - 1, by omega⟩ : Fin 63)) (fun a ha => ?_) ?_).trans ?_
    · match a with
      | ⟨0, _⟩ => rfl
      | ⟨1, _⟩ => rfl
      | ⟨2, _⟩ => rfl
      | ⟨3, _⟩ => exact absurd rfl ha
    · show e.val - 1 + 1 = e.val; omega
    · rw [rest_apply]
      have e1 : (⟨1 + (e.val - 1), by omega⟩ : Fin 64) = e := Fin.ext (by show 1 + (e.val - 1) = e.val; omega)
      rw [e1]

/-- Position (b, s, q) of the reshaped result comes from (b, s, q / 64, q % 64). -/
theorem idx_reshape (i : S32x2048x512.Idx) : idx_main_v12 i = ix4 (i 0) (i 1) (featOf (i 2)) (colOf (i 2)) := by
  have h0 : (i 0).val < 32 := (i 0).isLt
  have h1 : (i 1).val < 2048 := (i 1).isLt
  have h2 : (i 2).val < 512 := (i 2).isLt
  funext a
  apply Fin.ext
  match a with
  | ⟨0, _⟩ => show (((i 0).val * 2048 + (i 1).val) * 512 + (i 2).val) / 1048576 = (i 0).val; omega
  | ⟨1, _⟩ => show (((i 0).val * 2048 + (i 1).val) * 512 + (i 2).val) / 512 % 2048 = (i 1).val; omega
  | ⟨2, _⟩ => show (((i 0).val * 2048 + (i 1).val) * 512 + (i 2).val) / 64 % 8 = (i 2).val / 64; omega
  | ⟨3, _⟩ => show (((i 0).val * 2048 + (i 1).val) * 512 + (i 2).val) % 64 = (i 2).val % 64; omega

/-- THE REFERENCE'S RESULT is the time-embedding map of its arguments. -/
theorem result_eq : val_main_v12 (F := Ideal) x w b = embed x w b := by
  funext i
  have h := joined_apply x w b (i 0) (i 1) (featOf (i 2)) (colOf (i 2))
  rw [val_main_v12_apply, idx_reshape]
  exact h

end Cert.ReferenceIdeal.RefValue

end
-- ==== Proof.lean ====
/-
  A time-embedding kernel against its reference program, equal over the extended reals.

  Both programs compute, for a batch x : [32, 2048, 8], a weight w : [8, 64] and a bias b : [8, 64], the array
  out[b, s, 64·d + e] = x[b, s, d]·w[d, e] + b[d, e] for e = 0 and the sine of that affine value for e = 1 … 63
  (`Time2Vec.embed`, Proof/Time2VecSpec.lean).
  • The reference forms the affine value on [32, 2048, 8, 64], keeps column 0, takes the sine of columns 1 … 63, joins
    the two along the last axis and reshapes to [32, 2048, 512] (Proof/RefValue.lean, over the generated reading of
    its run).
  • The kernel flattens the batch to 65536 rows and works on 1024 rows per grid point: for each feature d it forms the
    affine value of column d against row d of the weight and the bias, keeps it where the lane number is 0 and takes
    its sine elsewhere, and lays the 8 groups side by side (Proof/BodyValue.lean, Proof/BlockValue.lean); the 64
    points' blocks tile the result, which is reshaped to [32, 2048, 512] (Proof/KernelValue.lean, Proof/ReshapeLaw.lean).
  The two are the same function of the arguments entry by entry: the same product, the same sum, the same sine, in
  the same order, so no law of the extended reals is needed and the finiteness of the inputs is never used. The
  idealization rewrote nothing, so `preserves` is trivial; the kernels' frames are the generated ones, and the
  reference's frame is its generated run with the result dropped.
-/
import proofs.«118065_j20761871909647_2_alg».proof.Defs
import proofs.«118065_j20761871909647_2_alg».proof.Proof.Gen.Kernel
import proofs.«118065_j20761871909647_2_alg».proof.Proof.Gen.Kernel.Skeleton
import proofs.«118065_j20761871909647_2_alg».proof.Proof.Gen.Kernel.Launch
import proofs.«118065_j20761871909647_2_alg».proof.Proof.Gen.Kernel.Points
import proofs.«118065_j20761871909647_2_alg».proof.Proof.Gen.Kernel.Frame
import proofs.«118065_j20761871909647_2_alg».proof.Proof.Gen.KernelIdeal
import proofs.«118065_j20761871909647_2_alg».proof.Proof.Gen.KernelIdeal.Skeleton
import proofs.«118065_j20761871909647_2_alg».proof.Proof.Gen.KernelIdeal.Launch
import proofs.«118065_j20761871909647_2_alg».proof.Proof.Gen.KernelIdeal.Points
import proofs.«118065_j20761871909647_2_alg».proof.Proof.Gen.KernelIdeal.Frame
import proofs.«118065_j20761871909647_2_alg».proof.Proof.Gen.ReferenceIdeal
import proofs.«118065_j20761871909647_2_alg».proof.Proof.Gen.ReferenceIdeal.Run
import proofs.«118065_j20761871909647_2_alg».proof.Proof.Gen.ReferenceIdeal.Read
import proofs.«118065_j20761871909647_2_alg».proof.Proof.Gen.Pre_finite_inputs
import proofs.«118065_j20761871909647_2_alg».proof.Proof.KernelValue
import proofs.«118065_j20761871909647_2_alg».proof.Proof.RefValue
import Idealize.ShloMosaic.Adequacy
import Idealize.ShloMosaic.Init

noncomputable section

namespace Cert.Proof

open Idealize.ShloMosaic Idealize.ShloMosaic.TcCoe Idealize.SL.Sem

/-- From memories agreeing on the arguments both idealized programs end with the map on the batch of the kernel's
    arguments: the kernel by its run read block by block, the reference by its run read stage by stage. -/
theorem algebraic : Cert.algebraic_KernelIdeal_ReferenceIdeal := by
  intro m ρ m' ρ' _ hagree
  refine ⟨fun c => Cert.Time2Vec.embed (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v12_eq _ _ _).trans (Cert.ReferenceIdeal.RefValue.result_eq _ _ _)

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
